-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x128 : Shape := ⟨3, ![512, 128, 128]⟩
abbrev S1x4096 : Shape := ⟨2, ![1, 4096]⟩
abbrev S_ : Shape := ⟨0, ![]⟩

class Facts : Prop where
  bcast_S_S512x128x128 : S_.BroadcastsInDim S512x128x128 (![] : Fin 0 → Fin S512x128x128.rank)
  reducesTo_S512x128x128_S_d0_1_2 : S512x128x128.ReducesTo [0, 1, 2] S_
  h_S_ : 0 < S_.numel
  bcast_S_S1x4096 : S_.BroadcastsInDim S1x4096 (![] : Fin 0 → Fin S1x4096.rank)
  reducesTo_S1x4096_S_d0_1 : S1x4096.ReducesTo [0, 1] S_

variable [Facts]

def fn {F : FTy → Type} [FloatOps F] (main_arg0 : FVec F S512x128x128 .f32) (main_arg1 : FVec F S1x4096 .f32) : IVec S_ 1 :=
  let main_v0 : FVec F S512x128x128 .f32 := Host.absf main_arg0
  let main_cst : FVec F S_ .f32 := constant S_ .f32 0x7F800000#32
  let main_v1 : FVec F S512x128x128 .f32 := broadcastInDim S512x128x128 ![] bcast_S_S512x128x128 main_cst
  let main_v2 : IVec S512x128x128 1 := cmpf .olt main_v0 main_v1
  let main_c : IVec S_ 1 := constantI S_ 1 1#1
  let main_v3 : IVec S_ 1 := (fun x v => Host.reduce IntOp.andi x v reducesTo_S512x128x128_S_d0_1_2 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  main_v8
-- ==== Kernel.lean ====
abbrev S512x128x128 : Shape := ⟨3, ![512, 128, 128]⟩
abbrev S1x4096 : Shape := ⟨2, ![1, 4096]⟩
abbrev S65536x128 : Shape := ⟨2, ![65536, 128]⟩
abbrev S4096 : Shape := ⟨1, ![4096]⟩
abbrev S_ : Shape := ⟨0, ![]⟩
abbrev S128 : Shape := ⟨1, ![128]⟩
abbrev S128x1 : Shape := ⟨2, ![128, 1]⟩
abbrev S128x4096 : Shape := ⟨2, ![128, 4096]⟩
abbrev S65536x4096 : Shape := ⟨2, ![65536, 4096]⟩
abbrev S512x128x4096 : Shape := ⟨3, ![512, 128, 4096]⟩
abbrev S1024x128 : Shape := ⟨2, ![1024, 128]⟩
abbrev S1024x4096 : Shape := ⟨2, ![1024, 4096]⟩

abbrev nBuf : Space → Nat
  | .hbm => 34
  | .vmem => 5
  | .smem => 0
  | _ => 0

abbrev bufTy : (tb : Table) → Fin (tcTables nBuf tb) → BufTy
  | .hbm, ⟨0, _⟩ => ⟨S512x128x128, .f32⟩
  | .hbm, ⟨1, _⟩ => ⟨S1x4096, .f32⟩
  | .hbm, ⟨2, _⟩ => ⟨S65536x128, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S128, .i32⟩
  | .hbm, ⟨23, _⟩ => ⟨S128x1, .i32⟩
  | .hbm, ⟨24, _⟩ => ⟨S1x4096, .i32⟩
  | .hbm, ⟨25, _⟩ => ⟨S128x4096, .i32⟩
  | .hbm, ⟨26, _⟩ => ⟨S128x4096, .i32⟩
  | .hbm, ⟨27, _⟩ => ⟨S128x4096, .i1⟩
  | .hbm, ⟨28, _⟩ => ⟨S128x4096, .f32⟩
  | .hbm, ⟨29, _⟩ => ⟨S128x4096, .f32⟩
  | .hbm, ⟨30, _⟩ => ⟨S128x4096, .f32⟩
  | .hbm, ⟨31, _⟩ => ⟨S128x4096, .bf16⟩
  | .hbm, ⟨32, _⟩ => ⟨S65536x4096, .f32⟩
  | .hbm, ⟨33, _⟩ => ⟨S512x128x4096, .f32⟩
  | .local _ .vmem, ⟨0, _⟩ => ⟨S1024x128, .f32⟩
  | .local _ .vmem, ⟨1, _⟩ => ⟨S1024x128, .f32⟩
  | .local _ .vmem, ⟨2, _⟩ => ⟨S128x4096, .bf16⟩
  | .local _ .vmem, ⟨3, _⟩ => ⟨S1024x4096, .f32⟩
  | .local _ .vmem, ⟨4, _⟩ => ⟨S1024x4096, .f32⟩
  | _, _ => ⟨S512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_c : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_call0_c : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_call0_c_0 : Ref sig .tc := ⟨.hbm, 18, rfl⟩
abbrev main_call0_call0_v12 : Ref sig .tc := ⟨.hbm, 19, rfl⟩
abbrev main_call0_call0_v13 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_v0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S512x128x128_S65536x128 : S512x128x128.ShapeCasts S65536x128
  bcast_S_S4096 : S_.BroadcastsInDim S4096 (![] : Fin 0 → Fin S4096.rank)
  bcast_S128_S128x1_0 : S128.BroadcastsInDim S128x1 (![0] : Fin 1 → Fin S128x1.rank)
  bcast_S4096_S1x4096_1 : S4096.BroadcastsInDim S1x4096 (![1] : Fin 1 → Fin S1x4096.rank)
  bcast_S128x1_S128x4096_0_1 : S128x1.BroadcastsInDim S128x4096 (![0, 1] : Fin 2 → Fin S128x4096.rank)
  bcast_S1x4096_S128x4096_0_1 : S1x4096.BroadcastsInDim S128x4096 (![0, 1] : Fin 2 → Fin S128x4096.rank)
  bitsLt_bf16_f32 : FTy.bits .bf16 < FTy.bits .f32
  shapeCasts_S65536x4096_S512x128x4096 : S65536x4096.ShapeCasts S512x128x4096
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1024x4096_S1024x4096_0_0 : ∀ a, (![0, 0] : Fin 2 → Nat) a + S1024x4096.size a ≤ S1024x4096.size a
  h_S1024x4096 : 0 < S1024x4096.numel
  dot_S1024x128_S128x4096_S1024x4096_1_0_0_1_n_n_wf : DotDims.WF S1024x128 S128x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .bf16 = 32 ∨ (Rect.block (s := S128x4096) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S65536x4096.size a
  hwx0_2 : ∀ i : grid0.Coords, EltTy.bits .f32 = 32 ∨ (Rect.block (s := S65536x4096) S1024x4096.size (cc0_transform_2 i) (hinb0_2 i)).WholeWords (EltTy.packing .f32)

variable [Facts₀]

def dot_S1024x128_S128x4096_S1024x4096_1_0_0_1_n_n : DotDims S1024x128 S128x4096 S1024x4096 where
  lhsContracting := [1]
  rhsContracting := [0]
  lhsNonContracting := [0]
  rhsNonContracting := [1]
  lhsBatch := []
  rhsBatch := []
  wf := dot_S1024x128_S128x4096_S1024x4096_1_0_0_1_n_n_wf

abbrev win0_0 : Pipeline.Window sig grid0 :=
  Pipeline.Window.ofSpec (Memref.whole main_call0_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v12) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v13) S1024x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x128x128 : Shape := ⟨3, ![512, 128, 128]⟩
abbrev S1x4096 : Shape := ⟨2, ![1, 4096]⟩
abbrev S128x32 : Shape := ⟨2, ![128, 32]⟩
abbrev S512x128x128x1 : Shape := ⟨4, ![512, 128, 128, 1]⟩
abbrev S1x1x128x32 : Shape := ⟨4, ![1, 1, 128, 32]⟩
abbrev S512x128x128x32 : Shape := ⟨4, ![512, 128, 128, 32]⟩
abbrev S512x128x4096 : Shape := ⟨3, ![512, 128, 4096]⟩

abbrev nBuf : Space → Nat
  | .hbm => 9
  | .vmem => 0
  | .smem => 0
  | _ => 0

abbrev bufTy : (tb : Table) → Fin (tcTables nBuf tb) → BufTy
  | .hbm, ⟨0, _⟩ => ⟨S512x128x128, .f32⟩
  | .hbm, ⟨1, _⟩ => ⟨S1x4096, .f32⟩
  | .hbm, ⟨2, _⟩ => ⟨S128x32, .f32⟩
  | .hbm, ⟨3, _⟩ => ⟨S512x128x128x1, .f32⟩
  | .hbm, ⟨4, _⟩ => ⟨S1x1x128x32, .f32⟩
  | .hbm, ⟨5, _⟩ => ⟨S512x128x128x32, .f32⟩
  | .hbm, ⟨6, _⟩ => ⟨S512x128x128x32, .f32⟩
  | .hbm, ⟨7, _⟩ => ⟨S512x128x128x32, .f32⟩
  | .hbm, ⟨8, _⟩ => ⟨S512x128x4096, .f32⟩
  | _, _ => ⟨S512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  shapeCasts_S1x4096_S128x32 : S1x4096.ShapeCasts S128x32
  bcast_S512x128x128_S512x128x128x1_0_1_2 : S512x128x128.BroadcastsInDim S512x128x128x1 (![0, 1, 2] : Fin 3 → Fin S512x128x128x1.rank)
  bcast_S128x32_S1x1x128x32_2_3 : S128x32.BroadcastsInDim S1x1x128x32 (![2, 3] : Fin 2 → Fin S1x1x128x32.rank)
  bcast_S512x128x128x1_S512x128x128x32_0_1_2_3 : S512x128x128x1.BroadcastsInDim S512x128x128x32 (![0, 1, 2, 3] : Fin 4 → Fin S512x128x128x32.rank)
  bcast_S1x1x128x32_S512x128x128x32_0_1_2_3 : S1x1x128x32.BroadcastsInDim S512x128x128x32 (![0, 1, 2, 3] : Fin 4 → Fin S512x128x128x32.rank)
  shapeCasts_S512x128x128x32_S512x128x4096 : S512x128x128x32.ShapeCasts S512x128x4096

variable [Facts₀]

class Facts : Prop extends Facts₀ where

variable [Facts]
-- ==== Proof.Spec.lean ====
/-
  Per-channel expansion.  Every channel value `x[b,t,c]` is spread over the 32 output columns `32c, …, 32c+31`, column
  `j` scaled by its own weight `w[0,j]`:

      y[b,t,j] = x[b,t,j / 32] · w[0,j].

  The same function on the rows of `x` flattened to `[65536, 128]` is `expandRows`.  Both are stated on the extended
  reals, index by index, over the literal shapes.

  The one algebraic fact used later is `sum_indicator`: a sum over the 128 channels of `a k · (δ(k, c) · b)`, where
  `δ` is the indicator of one channel, keeps only that channel's term.  On the extended reals `0 · b = 0` and
  `a · 0 = 0` for every `a` and `b`, infinite ones too, so no finiteness is needed.
-/
import Idealize.ShloMosaic.PureOps.Ideal
import Idealize.ShloMosaic.Lib.ValueIdx

noncomputable section

open scoped BigOperators

namespace Cert.ChannelExpand

open Idealize.ShloMosaic Idealize.ShloMosaic.ValueIdx

/-- The channel an output column belongs to: column `j` is one of the 32 columns of channel `j / 32`. -/
def chan (j : Fin 4096) : Fin 128 := ⟨j.val / 32, by have := j.isLt; omega⟩

theorem chan_val (j : Fin 4096) : (chan j).val = j.val / 32 := rfl

/-- `y[b,t,j] = x[b,t,j / 32] · w[0,j]`. -/
def expand (x : (⟨3, ![512, 128, 128]⟩ : Shape).Idx → EReal) (w : (⟨2, ![1, 4096]⟩ : Shape).Idx → EReal) :
    (⟨3, ![512, 128, 4096]⟩ : Shape).Idx → EReal :=
  fun i => x (ix3 (i 0) (i 1) (chan (i 2))) * w (ix2 (0 : Fin 1) (i 2))

/-- The same on flattened rows: `y[r,j] = x[r,j / 32] · w[0,j]`. -/
def expandRows (xr : (⟨2, ![65536, 128]⟩ : Shape).Idx → EReal) (w : (⟨2, ![1, 4096]⟩ : Shape).Idx → EReal) :
    (⟨2, ![65536, 4096]⟩ : Shape).Idx → EReal :=
  fun i => xr (ix2 (i 0) (chan (i 1))) * w (ix2 (0 : Fin 1) (i 1))

/-- A sum over the channels against the indicator of one channel keeps that channel's term. -/
theorem sum_indicator (a : Fin 128 → EReal) (b : EReal) (c : Fin 128) :
    ∑ k : Fin 128, a k * ((if k = c then (1 : EReal) else 0) * b) = a c * b := by
  rw [Finset.sum_eq_single c]
  · rw [if_pos rfl, one_mul]
  · intro k _ hk
    rw [if_neg hk, zero_mul, mul_zero]
  · intro h
    exact absurd (Finset.mem_univ c) h

end Cert.ChannelExpand

end
-- ==== Proof.RefIs.lean ====
/-
  The reference is the expansion.  The reference reshapes `w` to `[128, 32]`, broadcasts `x` along a new last axis of
  extent 32 and `w` along the two leading axes, multiplies elementwise and flattens the two last axes
  `[128, 32] → [4096]`.  Read at the output index `(b, t, j)`: the flattened position `j` splits as channel `j / 32`
  and offset `j % 32`, the `x` factor is `x[b, t, j / 32]`, and the `w` factor is `w` at the flat position
  `32 · (j / 32) + j % 32 = j`.
-/
import proofs.«180517_j54709293416679_2_alg».proof.Proof.Gen.ReferenceIdeal.Read
import proofs.«180517_j54709293416679_2_alg».proof.Proof.Spec

noncomputable section

namespace Cert.ChannelExpand

open Idealize.ShloMosaic Idealize.ShloMosaic.ValueIdx
open Cert.ReferenceIdeal Cert.ReferenceIdeal.Read

/-- The `x` operand of the product at `(b, t, j)` is read at `(b, t, j / 32)`. -/
theorem ref_x_index (i : S512x128x4096.Idx) :
    idx_main_v1 (idx_main_v3 (idx_main_v6 i)) = ix3 (i 0) (i 1) (chan (i 2)) := by
  have h0 : (i 0).val < 512 := (i 0).isLt
  have h1 : (i 1).val < 128 := (i 1).isLt
  have h2 : (i 2).val < 4096 := (i 2).isLt
  funext a
  apply Fin.ext
  match a with
  | ⟨0, _⟩ => show (((i 0).val * 128 + (i 1).val) * 4096 + (i 2).val) / 524288 = (i 0).val; omega
  | ⟨1, _⟩ => show (((i 0).val * 128 + (i 1).val) * 4096 + (i 2).val) / 4096 % 128 = (i 1).val; omega
  | ⟨2, _⟩ => show (((i 0).val * 128 + (i 1).val) * 4096 + (i 2).val) / 32 % 128 = (i 2).val / 32; omega

/-- The `w` operand of the product at `(b, t, j)` is read at `(0, j)`. -/
theorem ref_w_index (i : S512x128x4096.Idx) :
    idx_main_v0 (idx_main_v2 (idx_main_v4 (idx_main_v6 i))) = ix2 (0 : Fin 1) (i 2) := by
  have h0 : (i 0).val < 512 := (i 0).isLt
  have h1 : (i 1).val < 128 := (i 1).isLt
  have h2 : (i 2).val < 4096 := (i 2).isLt
  funext a
  apply Fin.ext
  match a with
  | ⟨0, _⟩ => rfl
  | ⟨1, _⟩ =>
    show ((((i 0).val * 128 + (i 1).val) * 4096 + (i 2).val) / 32 % 128 * 32
      + (((i 0).val * 128 + (i 1).val) * 4096 + (i 2).val) % 32) % 4096 = (i 2).val
    omega

/-- The reference's result, as a function of its two arguments, is the expansion. -/
theorem ref_eq (x : (⟨S512x128x128, .f32⟩ : BufTy).Contents (Elt Ideal)) (w : (⟨S1x4096, .f32⟩ : BufTy).Contents (Elt Ideal)) :
    val_main_v6 (F := Ideal) x w = expand x w := by
  funext i
  rw [val_main_v6_apply, val_main_v5_apply, val_main_v3_apply, val_main_v1_apply, val_main_v4_apply, val_main_v2_apply,
    val_main_v0_apply, ref_x_index, ref_w_index]
  rfl

end Cert.ChannelExpand

end
-- ==== Proof.Payload.lean ====
/-
  The kernel's arithmetic at one element.  At one grid point the body loads a block `X : [1024, 128]` of rows and the
  whole matrix `M : [128, 4096]`, changes `X`'s format (the identity on extended reals) and stores the matrix product
  accumulated into zero.  Read at `(p, q)` that is the plain sum over the 128 channels, `∑ k, X[p, k] · M[k, q]`.
-/
import proofs.«180517_j54709293416679_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.ChannelExpand

open Idealize.ShloMosaic Idealize.ShloMosaic.ValueIdx
open Cert.KernelIdeal Cert.KernelIdeal.Gen

/-- Two rank-2 indices with equal coordinates are equal. -/
theorem ext_ix2 {n0 n1 : Nat} (i j : (⟨2, ![n0, n1]⟩ : Shape).Idx) (h0 : (i 0 : ℕ) = j 0) (h1 : (i 1 : ℕ) = j 1) : i = j := by
  funext a
  apply Fin.ext
  match a with
  | ⟨0, _⟩ => exact h0
  | ⟨1, _⟩ => exact h1

/-- The product's dimension numbers: rows × channels times channels × columns. -/
abbrev mm : DotDims S1024x128 S128x4096 S1024x4096 := dot_S1024x128_S128x4096_S1024x4096_1_0_0_1_n_n

theorem lhs_row (j : S1024x4096.Idx) (k : mm.contr.Idx) : (mm.lhsIdx j k 0 : ℕ) = j 0 := by
  simp [DotDims.lhsIdx, mm, dot_S1024x128_S128x4096_S1024x4096_1_0_0_1_n_n]; rfl
theorem lhs_chan (j : S1024x4096.Idx) (k : mm.contr.Idx) : (mm.lhsIdx j k 1 : ℕ) = k ⟨0, by decide⟩ := by
  simp [DotDims.lhsIdx, mm, dot_S1024x128_S128x4096_S1024x4096_1_0_0_1_n_n]; rfl
theorem rhs_chan (j : S1024x4096.Idx) (k : mm.contr.Idx) : (mm.rhsIdx j k 0 : ℕ) = k ⟨0, by decide⟩ := by
  simp [DotDims.rhsIdx, mm, dot_S1024x128_S128x4096_S1024x4096_1_0_0_1_n_n]; rfl
theorem rhs_col (j : S1024x4096.Idx) (k : mm.contr.Idx) : (mm.rhsIdx j k 1 : ℕ) = j 1 := by
  simp [DotDims.rhsIdx, mm, dot_S1024x128_S128x4096_S1024x4096_1_0_0_1_n_n]; rfl

/-- The contraction runs over the 128 channels. -/
def chanEquiv : mm.contr.Idx ≃ Fin 128 := contrEquiv1 mm 128 rfl rfl

theorem chanEquiv_symm_val (k : Fin 128) : ((chanEquiv.symm k) ⟨0, by decide⟩ : ℕ) = k.val :=
  contrEquiv1_symm_val mm 128 rfl rfl k

/-- The stored block at `(p, q)` is the sum over the channels of the row block's entry times the matrix's. -/
theorem pay_apply (x0 : Vec Ideal S1024x128 .f32) (x1 : Vec Ideal S128x4096 .bf16) (p : Fin 1024) (q : Fin 4096) :
    k0_pay1 x0 x1 (ix2 p q) = ∑ k : Fin 128, x0 (ix2 p k) * x1 (ix2 k q) := by
  unfold k0_pay1
  rw [shapeCast_self, shapeCast_self]
  refine (Ideal.matmul_constant_zero_apply (φ₁ := .bf16) (φ₂ := .bf16) mm none _ _ (ix2 p q)).trans ?_
  rw [← Equiv.sum_comp chanEquiv.symm]
  refine Finset.sum_congr rfl fun k _ => ?_
  rw [truncf_apply]
  congr 1
  · exact congrArg x0 (ext_ix2 _ _ (lhs_row _ _) ((lhs_chan _ _).trans (chanEquiv_symm_val k)))
  · exact congrArg x1 (ext_ix2 _ _ ((rhs_chan _ _).trans (chanEquiv_symm_val k)) (rhs_col _ _))

end Cert.ChannelExpand

end
-- ==== Proof.HostRun.lean ====
/-
  What the host leaves for the kernel.  Before the kernel is launched the host (i) flattens `x` to rows,
  `[512, 128, 128] → [65536, 128]`, and (ii) builds the expansion matrix `M : [128, 4096]`: the column numbers
  `0 … 4095` floor-divided by 32 give each column's channel, a channel number `k` compared for equality with it gives
  the indicator of "column `j` belongs to channel `k`" as a bit, the bit converted to a float is multiplied by `w[0, j]`,
  and the product changes format.  `quot` and `expansionMatrix` are these two terms, operation by operation;
  `entry_rows` and `entry_matrix` say that the kernel's two input arrays hold them when the kernel starts.
-/
import proofs.«180517_j54709293416679_2_alg».proof.Proof.Gen.KernelIdeal.Frame
import Idealize.ShloMosaic.Lib.StableHlo.Run
import Idealize.ShloMosaic.PureOps.Ideal

noncomputable section

namespace Cert.ChannelExpand

open Idealize.ShloMosaic Idealize.ShloMosaic.TcCoe Idealize.SL.Sem
open Cert.KernelIdeal Cert.KernelIdeal.Gen

/-- The column numbers floor-divided by 32, as the host computes a floor division of words: the quotient toward zero,
    less one where the signs differ and the remainder is not zero. -/
def quot : IVec S4096 32 :=
  have io : IVec S4096 32 := iotaInDim S4096 32 0
  have c32 : IVec S_ 32 := id (constantI S_ 32 32#32)
  have q : IVec S4096 32 := Host.divsi io (broadcastInDim S4096 ![] bcast_S_S4096 c32)
  select
    (andi
      (cmpi .ne (signi io) (broadcastInDim S4096 ![] bcast_S_S4096 (signi c32)))
      (cmpi .ne (Host.remsi io (broadcastInDim S4096 ![] bcast_S_S4096 c32))
        (broadcastInDim S4096 ![] bcast_S_S4096 (constantI S_ 32 0#32))))
    (subi q (broadcastInDim S4096 ![] bcast_S_S4096 (constantI S_ 32 1#32)))
    q

/-- The expansion matrix: `M[k, j]` is the indicator of `k = j / 32`, as a float, times `w[0, j]`. -/
def expansionMatrix (w : FVec Ideal S1x4096 .f32) : FVec Ideal S128x4096 .bf16 :=
  truncf .bf16
    (mulf
      (uitofp .f32
        (cmpi .eq
          (broadcastInDim S128x4096 ![0, 1] bcast_S128x1_S128x4096_0_1
            (broadcastInDim S128x1 ![0] bcast_S128_S128x1_0 (iotaInDim S128 32 0)))
          (broadcastInDim S128x4096 ![0, 1] bcast_S1x4096_S128x4096_0_1
            (broadcastInDim S1x4096 ![1] bcast_S4096_S1x4096_1 quot))))
      (broadcastInDim S128x4096 ![0, 1] bcast_S1x4096_S128x4096_0_1 w))
    bitsLt_bf16_f32

variable (m : (ℓ : Loc nD τ sig) → Buf (Elt Ideal) ℓ)

/-- When the kernel starts its first input array holds the rows of `x`. -/
theorem entry_rows (c : Dev nD) :
    (V m c main_call0_v0 : S65536x128.Idx → EReal)
      = shapeCast S65536x128 (m ((c : Thread nD τ).loc main_arg0)) shapeCasts_S512x128x128_S65536x128 := by
  show StableHlo.after hostOps0 (fun b => m (c, b)) (Proc.devRef .tc main_call0_v0) = _
  after_results
  rfl

set_option maxHeartbeats 1000000 in
/-- When the kernel starts its second input array holds the expansion matrix of `w`. -/
theorem entry_matrix (c : Dev nD) :
    (V m c main_call0_v12 : S128x4096.Idx → EReal) = expansionMatrix (m ((c : Thread nD τ).loc main_arg1)) := by
  show StableHlo.after hostOps0 (fun b => m (c, b)) (Proc.devRef .tc main_call0_v12) = _
  after_results
  rfl

end Cert.ChannelExpand

end
-- ==== Proof.FloorDiv.lean ====
/-
  The integer side of the expansion matrix.  The host computes `j // 32` for the column numbers `j = 0 … 4095` as
  a floor division of 32-bit words is lowered: the quotient rounded toward zero, less one where the operands' signs
  differ and the remainder is not zero.  On `0 … 4095` the correction never applies (a positive `j` has the
  divisor's sign; at `j = 0` the remainder is zero) and the result is the natural-number quotient: `floorDiv32_iota`,
  decided over the 4096 words.  The comparison of a channel number with that quotient is then the indicator of
  `k = j / 32` (`eqBit`), and its conversion to a float is `1` or `0` (`indicator`).
-/
import Idealize.ShloMosaic.PureOps.Ideal
import Idealize.ShloMosaic.Lib.ValueIdx
import Idealize.ShloMosaic.Lib.Affine
import proofs.«180517_j54709293416679_2_alg».proof.Proof.Spec

noncomputable section

namespace Cert.ChannelExpand

open Idealize.ShloMosaic Idealize.ShloMosaic.ValueIdx

/-- The sign of a word as the host's `sign` computes it: 0, −1 or 1. -/
def sgn (x : BitVec 32) : BitVec 32 := if x = 0 then 0 else if x.msb then -1 else 1

/-- The lowered floor division of a word by 32. -/
def floorDiv32 (x : BitVec 32) : BitVec 32 :=
  Scalar.select
    (IntOp.andi (IntOp.cmpi .ne (sgn x) (sgn 32#32)) (IntOp.cmpi .ne (IntOp.remsi .host x 32#32) 0#32))
    (IntOp.subi (IntOp.divsi .host x 32#32) 1#32)
    (IntOp.divsi .host x 32#32)

/-- On the column numbers it is the natural-number quotient. -/
theorem floorDiv32_iota : ∀ j : Fin 4096, floorDiv32 (BitVec.ofNat 32 j.val) = BitVec.ofNat 32 (j.val / 32) := by
  decide +kernel

/-- Channel `k` equals the quotient of column `j` exactly when `k` is `j`'s channel. -/
theorem eqBit (k : Fin 128) (j : Fin 4096) :
    IntOp.cmpi .eq (BitVec.ofNat 32 k.val) (BitVec.ofNat 32 (j.val / 32)) = if k = chan j then 1#1 else 0#1 := by
  have hk := k.isLt
  have hj := j.isLt
  split
  · rename_i h
    rw [IntOp.cmpi_eq, h]
    rfl
  · rename_i h
    apply eq_zero_of_ne_one
    rw [IntOp.cmpi_eq]
    intro e
    apply h
    apply Fin.ext
    have e' := congrArg BitVec.toNat e
    rw [BitVec.toNat_ofNat, BitVec.toNat_ofNat] at e'
    show k.val = j.val / 32
    omega

/-- The indicator bit converted to a float is the extended real `1` or `0`. -/
theorem indicator (k : Fin 128) (j : Fin 4096) :
    FloatOps.uitofp (F := Ideal) .f32 (IntOp.cmpi .eq (BitVec.ofNat 32 k.val) (floorDiv32 (BitVec.ofNat 32 j.val)))
      = if k = chan j then (1 : EReal) else 0 := by
  rw [floorDiv32_iota, eqBit]
  split
  · show (((1#1 : BitVec 1).toNat : ℝ) : EReal) = 1
    simp
  · show (((0#1 : BitVec 1).toNat : ℝ) : EReal) = 0
    simp

end Cert.ChannelExpand

end
-- ==== Proof.HostRead.lean ====
/-
  The host's two terms read at an index.  The broadcasts that place the channel numbers down the rows and the
  quotients along the columns read their operand at the one coordinate they keep; the floor-division term at column
  `j` is the scalar floor division of the word `j` (every operation in it is elementwise, and its constants are
  splats); so `M[k, j] = δ(k, j / 32) · w[0, j]` with `δ` the extended-real indicator.  The flattened rows read
  `x` at the row's batch and time: row `r` is `(r / 128, r % 128)`.
-/
import proofs.«180517_j54709293416679_2_alg».proof.Proof.HostRun
import proofs.«180517_j54709293416679_2_alg».proof.Proof.FloorDiv
import Idealize.ShloMosaic.Lib.Pipeline.Value

noncomputable section

namespace Cert.ChannelExpand

open Idealize.ShloMosaic Idealize.ShloMosaic.ValueIdx
open Cert.KernelIdeal Cert.KernelIdeal.Gen

section Broadcasts
variable {α : Type}

/-- `[128] → [128, 1]`: entry `(k, 0)` is entry `k`. -/
theorem bc_column (h : S128.BroadcastsInDim S128x1 (![0] : Fin 1 → Fin S128x1.rank)) (x : S128.Idx → α) (k : Fin 128) (z : Fin 1) :
    broadcastInDim S128x1 ![0] h x (ix2 k z) = x (ix1 k) :=
  broadcastInDim_apply _ h x (ix2 k z) (ix1 k) (fun a => match a with
    | ⟨0, _⟩ => by show k.val = if (128 : Nat) = 1 then 0 else k.val; rw [if_neg (by decide)])

/-- `[4096] → [1, 4096]`: entry `(0, j)` is entry `j`. -/
theorem bc_row (h : S4096.BroadcastsInDim S1x4096 (![1] : Fin 1 → Fin S1x4096.rank)) (x : S4096.Idx → α) (z : Fin 1) (j : Fin 4096) :
    broadcastInDim S1x4096 ![1] h x (ix2 z j) = x (ix1 j) :=
  broadcastInDim_apply _ h x (ix2 z j) (ix1 j) (fun a => match a with
    | ⟨0, _⟩ => by show j.val = if (4096 : Nat) = 1 then 0 else j.val; rw [if_neg (by decide)])

/-- `[128, 1] → [128, 4096]`: entry `(k, j)` is entry `(k, 0)`. -/
theorem bc_across (h : S128x1.BroadcastsInDim S128x4096 (![0, 1] : Fin 2 → Fin S128x4096.rank)) (x : S128x1.Idx → α)
    (k : Fin 128) (j : Fin 4096) :
    broadcastInDim S128x4096 ![0, 1] h x (ix2 k j) = x (ix2 k (0 : Fin 1)) :=
  broadcastInDim_apply _ h x (ix2 k j) (ix2 k (0 : Fin 1)) (fun a => match a with
    | ⟨0, _⟩ => by show k.val = if (128 : Nat) = 1 then 0 else k.val; rw [if_neg (by decide)]
    | ⟨1, _⟩ => by show 0 = if (1 : Nat) = 1 then 0 else j.val; rw [if_pos rfl])

/-- `[1, 4096] → [128, 4096]`: entry `(k, j)` is entry `(0, j)`. -/
theorem bc_down (h : S1x4096.BroadcastsInDim S128x4096 (![0, 1] : Fin 2 → Fin S128x4096.rank)) (x : S1x4096.Idx → α)
    (k : Fin 128) (j : Fin 4096) :
    broadcastInDim S128x4096 ![0, 1] h x (ix2 k j) = x (ix2 (0 : Fin 1) j) :=
  broadcastInDim_apply _ h x (ix2 k j) (ix2 (0 : Fin 1) j) (fun a => match a with
    | ⟨0, _⟩ => by show 0 = if (1 : Nat) = 1 then 0 else k.val; rw [if_pos rfl]
    | ⟨1, _⟩ => by show j.val = if (4096 : Nat) = 1 then 0 else j.val; rw [if_neg (by decide)])

end Broadcasts

/-- The host's quotient term at column `j` is the scalar floor division of the word `j`. -/
theorem quot_apply (j : Fin 4096) : quot (ix1 j) = floorDiv32 (BitVec.ofNat 32 j.val) := rfl

/-- `M[k, j] = δ(k, j / 32) · w[0, j]`. -/
theorem expansionMatrix_apply (w : FVec Ideal S1x4096 .f32) (k : Fin 128) (j : Fin 4096) :
    expansionMatrix w (ix2 k j) = (if k = chan j then (1 : EReal) else 0) * w (ix2 (0 : Fin 1) j) := by
  unfold expansionMatrix
  rw [truncf_apply, mulf_apply]
  show FloatOps.uitofp (F := Ideal) .f32 (IntOp.cmpi .eq
      (broadcastInDim S128x4096 ![0, 1] bcast_S128x1_S128x4096_0_1
        (broadcastInDim S128x1 ![0] bcast_S128_S128x1_0 (iotaInDim S128 32 0)) (ix2 k j))
      (broadcastInDim S128x4096 ![0, 1] bcast_S1x4096_S128x4096_0_1
        (broadcastInDim S1x4096 ![1] bcast_S4096_S1x4096_1 quot) (ix2 k j)))
    * broadcastInDim S128x4096 ![0, 1] bcast_S1x4096_S128x4096_0_1 w (ix2 k j) = _
  rw [bc_across, bc_column, bc_down, bc_row, bc_down, quot_apply]
  show FloatOps.uitofp (F := Ideal) .f32 (IntOp.cmpi .eq (BitVec.ofNat 32 k.val) (floorDiv32 (BitVec.ofNat 32 j.val))) * _ = _
  rw [indicator]

/-- Row `r` of the flattened `x` is `x` at batch `r / 128` and time `r % 128`. -/
theorem rows_apply (h : S512x128x128.ShapeCasts S65536x128) (x : S512x128x128.Idx → EReal) (r : Fin 65536) (k : Fin 128) :
    shapeCast S65536x128 x h (ix2 r k)
      = x (ix3 (⟨r.val / 128, by have := r.isLt; omega⟩ : Fin 512) (⟨r.val % 128, by omega⟩ : Fin 128) k) := by
  have hr := r.isLt
  have hk := k.isLt
  refine shapeCast_apply x h (ix2 r k) _ ?_
  rw [Shape.rowMajor_val_three, Shape.rowMajor_val_two]
  show (r.val / 128 * 128 + r.val % 128) * 128 + k.val = r.val * 128 + k.val
  omega

end Cert.ChannelExpand

end
-- ==== Proof.Blocks.lean ====
/-
  From blocks to the array.  The grid has 64 points; point `t` loads rows `1024 t … 1024 t + 1023` of the flattened
  `x` and the whole expansion matrix, and writes back rows `1024 t … 1024 t + 1023` of the output.  At one element
  the body's sum over the channels against the matrix's indicator entries keeps one term (`block_value`), so what point
  `t` writes back is block `t` of ONE function of the arrays the kernel finds, `y[r, j] = x[r, j / 32] · w[0, j]`
  (`flushed_eq`).  Every row lies in the block of point `r / 1024` (`cover`), so after the run the output array is that
  function (`final`).
-/
import proofs.«180517_j54709293416679_2_alg».proof.Proof.Gen.KernelIdeal.Frame
import proofs.«180517_j54709293416679_2_alg».proof.Proof.Spec
import proofs.«180517_j54709293416679_2_alg».proof.Proof.Payload
import proofs.«180517_j54709293416679_2_alg».proof.Proof.HostRead
import Idealize.ShloMosaic.Lib.Pipeline.Value

set_option maxRecDepth 16384

noncomputable section

open scoped BigOperators

namespace Cert.ChannelExpand

open Idealize.ShloMosaic Idealize.ShloMosaic.TcCoe Idealize.SL.Sem Idealize.ShloMosaic.ValueIdx
open Cert.KernelIdeal Cert.KernelIdeal.Gen
open Idealize.ShloMosaic.Pipeline (Dat)

/-- One element of one block.  `X` is a block of rows read out of `xr` through `eX` (rows shifted by `1024 · r0`,
    channels kept), `M` the matrix read whole through `eM`, and the matrix's entries are indicator times weight: the
    body's sum over the channels at `y` is `xr[r, j / 32] · w[0, j]` at the array index `i = (1024 · r0 + y₀, y₁)`. -/
theorem block_value (X : S1024x128.Idx → EReal) (M : S128x4096.Idx → EReal)
    (xr : S65536x128.Idx → EReal) (Mf : S128x4096.Idx → EReal) (w : S1x4096.Idx → EReal)
    (eX : S1024x128.Idx → S65536x128.Idx) (eM : S128x4096.Idx → S128x4096.Idx)
    (y : S1024x4096.Idx) (i : S65536x4096.Idx) (r0 : Nat)
    (hX : ∀ y', X y' = xr (eX y')) (hM : ∀ y', M y' = Mf (eM y'))
    (hX0 : ∀ y', (eX y' 0).val = r0 * 1024 + (y' 0).val) (hX1 : ∀ y', (eX y' 1).val = (y' 1).val)
    (hM0 : ∀ y', (eM y' 0).val = (y' 0).val) (hM1 : ∀ y', (eM y' 1).val = (y' 1).val)
    (hMf : ∀ (k : Fin 128) (j : Fin 4096), Mf (ix2 k j) = (if k = chan j then (1 : EReal) else 0) * w (ix2 (0 : Fin 1) j))
    (hi0 : (i 0).val = r0 * 1024 + (y 0).val) (hi1 : (i 1).val = (y 1).val) :
    k0_pay1 (F := Ideal) X M y = expandRows xr w i := by
  obtain ⟨p, q, rfl⟩ : ∃ (p : Fin 1024) (q : Fin 4096), y = ix2 p q := ⟨y 0, y 1, eq_ix2 y⟩
  obtain ⟨r, j, rfl⟩ : ∃ (r : Fin 65536) (j : Fin 4096), i = ix2 r j := ⟨i 0, i 1, eq_ix2 i⟩
  have hr : r.val = r0 * 1024 + p.val := hi0
  have hj : j.val = q.val := hi1
  rw [pay_apply]
  have hterm : ∀ k : Fin 128, X (ix2 p k) * M (ix2 k q)
      = xr (ix2 r k) * ((if k = chan j then (1 : EReal) else 0) * w (ix2 (0 : Fin 1) j)) := by
    intro k
    have e1 : eX (ix2 p k) = ix2 r k := ext_ix2 _ _ ((hX0 _).trans hr.symm) (hX1 _)
    have e2 : eM (ix2 k q) = ix2 k j := ext_ix2 _ _ (hM0 _) ((hM1 _).trans hj.symm)
    rw [hX, hM, e1, e2, hMf]
  rw [Finset.sum_congr rfl fun k _ => hterm k]
  exact sum_indicator (fun k => xr (ix2 r k)) (w (ix2 (0 : Fin 1) j)) (chan j)

variable (m : (ℓ : Loc nD τ sig) → Buf (Elt Ideal) ℓ)

/-- The output array as one function of the arrays the kernel finds: the expansion of the flattened rows. -/
def rowsOut (c : Dev nD) : S65536x4096.Idx → EReal :=
  expandRows (V m c main_call0_v0) (m ((c : Thread nD τ).loc main_arg1))

theorem zero_off : (![0, 0] : Fin 2 → Nat) = fun _ => 0 := funext fun a => by fin_cases a <;> rfl

/-- The printed index maps over the grid: the row blocks of the input and of the output are both block `t`, the matrix's
    block is always the first, and no window moves along its second axis. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `rowsOut`. -/
theorem flushed_eq (c : Dev nD) (t : Fin cfg0.N) :
    (dats m 0 c).flushed 2 t = ((cfg0.win 2).blk t).view.read (Elt Ideal) (rowsOut m c) := by
  show (cfg0.win 2).cut (grid0.coords t) ((dats m 0 c).after 2 t) = _
  rw [after0_2]
  unfold out0_2
  rw [View.canon_unit_zero zero_off]
  simp only [View.ld_unit_zero (S := S1024x128) zero_off, View.ld_unit_zero (S := S128x4096) zero_off]
  obtain ⟨e0, e1, e2, e3, e4, e5⟩ := idx_facts t
  funext y
  show k0_pay1 (F := Ideal) (iblk m c 0 t) (iblk m c 1 t) y = rowsOut m c (((cfg0.win 2).blk t).view.emb y)
  refine block_value (iblk m c 0 t) (iblk m c 1 t) (V m c main_call0_v0) (V m c main_call0_v12)
    (m ((c : Thread nD τ).loc main_arg1)) (((cfg0.win 0).blk t).view.emb) (((cfg0.win 1).blk t).view.emb) y
    (((cfg0.win 2).blk t).view.emb y) t.val (fun _ => rfl) (fun _ => rfl) ?_ ?_ ?_ ?_ ?_ ?_ ?_
  · intro y'
    show win0_0.index t (0 : Fin 2) * 1024 + 1 * (y' 0).val = t.val * 1024 + (y' 0).val
    omega
  · intro y'
    show win0_0.index t (1 : Fin 2) * 128 + 1 * (y' 1).val = (y' 1).val
    omega
  · intro y'
    show win0_1.index t (0 : Fin 2) * 128 + 1 * (y' 0).val = (y' 0).val
    omega
  · intro y'
    show win0_1.index t (1 : Fin 2) * 4096 + 1 * (y' 1).val = (y' 1).val
    omega
  · intro k j
    exact (congrFun (entry_matrix m c) (ix2 k j)).trans (expansionMatrix_apply _ k j)
  · show win0_2.index t (0 : Fin 2) * 1024 + 1 * (y 0).val = t.val * 1024 + (y 0).val
    omega
  · show win0_2.index t (1 : Fin 2) * 4096 + 1 * (y 1).val = (y 1).val
    omega

/-- An index of the output array is in point `t`'s block iff each coordinate is in the block's range on its axis. -/
theorem mem_blk (t : Fin cfg0.N) (i : S65536x4096.Idx) :
    i ∈ ((cfg0.win 2).blk t).view.set ↔ ∀ a : Fin 2, win0_2.index t a * S1024x4096.size a ≤ (i a).val
      ∧ (i a).val < win0_2.index t a * S1024x4096.size a + S1024x4096.size a := by
  show i ∈ ((View.whole main_call0_v13).slice (win0_2.rect t)).set ↔ _
  rw [View.set_slice_whole, Rect.mem_set_unit]
  exact Iff.rfl

/-- Row `r` is written back by point `r / 1024`. -/
theorem cover (i : S65536x4096.Idx) :
    ∃ t : Fin cfg0.N, (cfg0.win 2).flush t = true ∧ i ∈ ((cfg0.win 2).blk t).view.set := by
  have hi0 : (i 0).val < 65536 := (i 0).isLt
  have hi1 : (i 1).val < 4096 := (i 1).isLt
  have ht : (i 0).val / 1024 < cfg0.N := by
    show (i 0).val / 1024 < grid0.N
    rw [N_0]
    omega
  obtain ⟨-, -, -, -, e4, e5⟩ := idx_facts ⟨(i 0).val / 1024, ht⟩
  refine ⟨⟨(i 0).val / 1024, ht⟩, flush0_2 _, ?_⟩
  rw [mem_blk]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e4]
    show (i 0).val / 1024 * 1024 ≤ (i 0).val ∧ (i 0).val < (i 0).val / 1024 * 1024 + 1024
    omega
  | ⟨1, _⟩ =>
    show win0_2.index ⟨(i 0).val / 1024, ht⟩ (1 : Fin 2) * 4096 ≤ (i 1).val
      ∧ (i 1).val < win0_2.index ⟨(i 0).val / 1024, ht⟩ (1 : Fin 2) * 4096 + 4096
    rw [e5]
    omega

/-- After the run the kernel's output array is the expansion of the flattened rows. -/
theorem final (c : Dev nD) : (dats m 0 c).arrAt 2 cfg0.N = rowsOut m c :=
  (dats m 0 c).arrAt_eq_of_cover 2 (rowsOut m c) (fun t _ => flushed_eq m c t) cover

end Cert.ChannelExpand

end
-- ==== Proof.KernelRun.lean ====
/-
  The kernel program's result.  After the kernel the host un-flattens the rows, `[65536, 4096] → [512, 128, 4096]`.
  Row `r = 128 b + t` of the kernel's output is `x[r / 128, r % 128, j / 32] · w[0, j]` (the flattened rows read back,
  `rows_apply`), so the un-flattened result at `(b, t, j)` is `x[b, t, j / 32] · w[0, j]`: the expansion (`unflatten`).
  `run` is the program's run re-posted with that value for its result and its arguments unchanged.
-/
import proofs.«180517_j54709293416679_2_alg».proof.Proof.Blocks
import Idealize.ShloMosaic.Lib.StableHlo.Run

set_option maxRecDepth 16384

noncomputable section

namespace Cert.ChannelExpand

open Idealize.ShloMosaic Idealize.ShloMosaic.TcCoe Idealize.SL.Sem Idealize.ShloMosaic.ValueIdx
open Cert.KernelIdeal Cert.KernelIdeal.Gen
open Idealize.ShloMosaic.Pipeline (Dat)

/-- Un-flattening the expansion of the flattened rows is the expansion. -/
theorem unflatten (h1 : S512x128x128.ShapeCasts S65536x128) (h2 : S65536x4096.ShapeCasts S512x128x4096)
    (x : S512x128x128.Idx → EReal) (w : S1x4096.Idx → EReal) :
    shapeCast S512x128x4096 (expandRows (shapeCast S65536x128 x h1) w) h2 = expand x w := by
  funext i
  have hb : (i 0).val < 512 := (i 0).isLt
  have ht : (i 1).val < 128 := (i 1).isLt
  have hj : (i 2).val < 4096 := (i 2).isLt
  have hr : (i 0).val * 128 + (i 1).val < 65536 := by omega
  rw [shapeCast_apply _ h2 i (ix2 (⟨(i 0).val * 128 + (i 1).val, hr⟩ : Fin 65536) (i 2)) (by
    rw [Shape.rowMajor_val_two, Shape.rowMajor_val_three]; rfl)]
  show shapeCast S65536x128 x h1 (ix2 (⟨(i 0).val * 128 + (i 1).val, hr⟩ : Fin 65536) (chan (i 2))) * w (ix2 (0 : Fin 1) (i 2))
    = x (ix3 (i 0) (i 1) (chan (i 2))) * w (ix2 (0 : Fin 1) (i 2))
  rw [rows_apply]
  refine congrArg (fun z => x z * w (ix2 (0 : Fin 1) (i 2))) ?_
  funext a
  apply Fin.ext
  match a with
  | ⟨0, _⟩ => show ((i 0).val * 128 + (i 1).val) / 128 = (i 0).val; omega
  | ⟨1, _⟩ => show ((i 0).val * 128 + (i 1).val) % 128 = (i 1).val; omega
  | ⟨2, _⟩ => rfl

variable (m : (ℓ : Loc nD τ sig) → Buf (Elt Ideal) ℓ) (ρ : Dev nD → PrngReg)

/-- What the host's last line leaves in the program's result: the expansion of the two arguments. -/
theorem result_eq (c : Dev nD) :
    Pipeline.afterTail₀ cfgs (dats m) 0 (V0 m) [hostOps1] c main_v0
      = expand (m ((c : Thread nD τ).loc main_arg0)) (m ((c : Thread nD τ).loc main_arg1)) := by
  have hw : Pipeline.withArrays spec0 c (V0 m c) (fun w => (dats m 0 c).arrAt w cfg0.N) (Proc.devRef .tc main_call0_v13)
      = rowsOut m c :=
    (Pipeline.withArrays_arr spec0 launch0.win.arr_inj c _ _ 2).trans (final m c)
  unfold Pipeline.afterTail₀
  show StableHlo.after hostOps1 _ (Proc.devRef .tc main_v0) = _
  after_results
  show shapeCast S512x128x4096
      (Pipeline.withArrays spec0 c (V0 m c) (fun w => (dats m 0 c).arrAt w cfg0.N) (Proc.devRef .tc main_call0_v13))
      shapeCasts_S65536x4096_S512x128x4096 = _
  rw [hw]
  unfold rowsOut
  rw [entry_rows]
  exact unflatten _ _ _ _

/-- The kernel program's run: it ends with the expansion of its arguments in its result and its arguments unchanged. -/
theorem run : θ_run defs (onTc (τ := τ) (main (F := Ideal))) ⟨m, fun _ => 0, ρ⟩ fun r => ∀ c : Dev nD,
      r.2.mem ((c : Thread nD τ).loc main_v0)
        = expand (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v0 (Pipeline.mem_restRefs_of main_v0 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.ChannelExpand

end
-- ==== Proof.lean ====
/-
  Per-channel expansion, `y[b,t,j] = x[b,t,j / 32] · w[0,j]` over `x : [512, 128, 128]` and `w : [1, 4096]`.

  The reference multiplies `x`, broadcast along a new axis of extent 32, by `w` reshaped to `[128, 32]`, and flattens the
  two last axes.  The kernel program flattens `x` to rows, builds the matrix `M[k, j] = δ(k, j / 32) · w[0, j]` on the
  host and has the kernel compute the product `rows · M` block by block, 1024 rows at each of 64 grid points; the host
  un-flattens the rows.  On the extended reals the product's sum over the 128 channels keeps the one term whose indicator
  is `1`, since `0 · b = 0` and `a · 0 = 0` hold for every extended real: both programs compute the same function of
  their arguments, with no use of the arguments' finiteness.

  The modules: `Spec` (the function and the sum against an indicator), `FloorDiv` (the host's integer floor division of
  the column numbers by 32), `RefIs` (the reference is the function), `HostRun` / `HostRead` (the rows and the matrix the
  kernel finds, read at an index), `Payload` (the body's matrix product at an element), `Blocks` (from the 64 blocks to
  the output array), `KernelRun` (the host's un-flattening, and the kernel program's run).
-/
import proofs.«180517_j54709293416679_2_alg».proof.Defs
import proofs.«180517_j54709293416679_2_alg».proof.Proof.Gen.Kernel
import proofs.«180517_j54709293416679_2_alg».proof.Proof.Gen.Kernel.Skeleton
import proofs.«180517_j54709293416679_2_alg».proof.Proof.Gen.Kernel.Launch
import proofs.«180517_j54709293416679_2_alg».proof.Proof.Gen.Kernel.Points
import proofs.«180517_j54709293416679_2_alg».proof.Proof.Gen.Kernel.Frame
import proofs.«180517_j54709293416679_2_alg».proof.Proof.Gen.KernelIdeal
import proofs.«180517_j54709293416679_2_alg».proof.Proof.Gen.KernelIdeal.Skeleton
import proofs.«180517_j54709293416679_2_alg».proof.Proof.Gen.KernelIdeal.Launch
import proofs.«180517_j54709293416679_2_alg».proof.Proof.Gen.KernelIdeal.Points
import proofs.«180517_j54709293416679_2_alg».proof.Proof.Gen.KernelIdeal.Frame
import proofs.«180517_j54709293416679_2_alg».proof.Proof.Gen.ReferenceIdeal
import proofs.«180517_j54709293416679_2_alg».proof.Proof.Gen.ReferenceIdeal.Run
import proofs.«180517_j54709293416679_2_alg».proof.Proof.Gen.ReferenceIdeal.Read
import proofs.«180517_j54709293416679_2_alg».proof.Proof.Gen.Pre_finite_inputs
import proofs.«180517_j54709293416679_2_alg».proof.Proof.RefIs
import proofs.«180517_j54709293416679_2_alg».proof.Proof.KernelRun
import Idealize.ShloMosaic.Adequacy
import Idealize.ShloMosaic.Init

noncomputable section

namespace Cert.Proof

open Idealize.ShloMosaic Idealize.ShloMosaic.TcCoe Idealize.SL.Sem

/-- The kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the expansion of their arguments, which agree. -/
theorem algebraic : Cert.algebraic_KernelIdeal_ReferenceIdeal := by
  intro m ρ m' ρ' _ hagree
  refine ⟨fun c => Cert.ChannelExpand.expand
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.ChannelExpand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.ChannelExpand.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
